-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x4 : Shape := ⟨2, ![2048, 4]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048x4 .f32) (main_arg2 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x4096x2048 : Shape := ⟨3, ![4, 4096, 2048]⟩
abbrev S2048x4 : Shape := ⟨2, ![2048, 4]⟩
abbrev S2048 : Shape := ⟨1, ![2048]⟩
abbrev S1x4096x256 : Shape := ⟨3, ![1, 4096, 256]⟩
abbrev S256x4 : Shape := ⟨2, ![256, 4]⟩
abbrev S256 : Shape := ⟨1, ![256]⟩
abbrev S1x256 : Shape := ⟨2, ![1, 256]⟩
abbrev S512x256 : Shape := ⟨2, ![512, 256]⟩
abbrev S256x1 : Shape := ⟨2, ![256, 1]⟩
abbrev S1x512x256 : Shape := ⟨3, ![1, 512, 256]⟩
abbrev S3x256 : Shape := ⟨2, ![3, 256]⟩
abbrev S509x256 : Shape := ⟨2, ![509, 256]⟩
abbrev S2x256 : Shape := ⟨2, ![2, 256]⟩
abbrev S510x256 : Shape := ⟨2, ![510, 256]⟩
abbrev S511x256 : Shape := ⟨2, ![511, 256]⟩
abbrev S1x520x256 : Shape := ⟨3, ![1, 520, 256]⟩
abbrev S520x256 : Shape := ⟨2, ![520, 256]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S2048, .f32⟩
  | .hbm, ⟨3, _⟩ => ⟨S4x4096x2048, .f32⟩
  | .local _ .vmem, ⟨0, _⟩ => ⟨S1x4096x256, .f32⟩
  | .local _ .vmem, ⟨1, _⟩ => ⟨S1x4096x256, .f32⟩
  | .local _ .vmem, ⟨2, _⟩ => ⟨S256x4, .f32⟩
  | .local _ .vmem, ⟨3, _⟩ => ⟨S256x4, .f32⟩
  | .local _ .vmem, ⟨4, _⟩ => ⟨S256, .f32⟩
  | .local _ .vmem, ⟨5, _⟩ => ⟨S256, .f32⟩
  | .local _ .vmem, ⟨6, _⟩ => ⟨S1x4096x256, .f32⟩
  | .local _ .vmem, ⟨7, _⟩ => ⟨S1x4096x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c1_i32 : BitVec 32 := 1#32
  let c7_i32 : BitVec 32 := 7#32
  let v44 : BitVec 32 := Scalar.addi c1_i32 c7_i32
  let c1_i32_10 : BitVec 32 := 1#32
  ⟨c1_i32, v44, c1_i32_10⟩
def k0_mult1 (k0_t1 : Fin k0_t1_loop.trips) : BitVec 32 :=
  let c1_i32 : BitVec 32 := 1#32
  let c1_i32_10 : BitVec 32 := 1#32
  let arg6 : BitVec 32 := Scf.iv c1_i32 c1_i32_10 k0_t1
  let c512_i32 : BitVec 32 := 512#32
  let v45 : BitVec 32 := Scalar.muli arg6 c512_i32
  let c8_i32 : BitVec 32 := 8#32
  let v46 : BitVec 32 := Scalar.subi v45 c8_i32
  v46
def k0_off1 (k0_t1 : Fin k0_t1_loop.trips) : Fin 3 → Nat :=
  let c0_12 : Index := 0#32
  let c1_i32 : BitVec 32 := 1#32
  let c1_i32_10 : BitVec 32 := 1#32
  let arg6 : BitVec 32 := Scf.iv c1_i32 c1_i32_10 k0_t1
  let c512_i32 : BitVec 32 := 512#32
  let v45 : BitVec 32 := Scalar.muli arg6 c512_i32
  let c8_i32 : BitVec 32 := 8#32
  let v46 : BitVec 32 := Scalar.subi v45 c8_i32
  let v47 : BitVec 32 := v46
  let v48 : Index := Scalar.indexCast v47
  let c0_13 : Index := 0#32
  ![0, v48.toNat, 0]
def k0_mult2 (k0_t1 : Fin k0_t1_loop.trips) : BitVec 32 :=
  let c1_i32 : BitVec 32 := 1#32
  let c1_i32_10 : BitVec 32 := 1#32
  let arg6 : BitVec 32 := Scf.iv c1_i32 c1_i32_10 k0_t1
  let c512_i32_14 : BitVec 32 := 512#32
  let v68 : BitVec 32 := Scalar.muli arg6 c512_i32_14
  v68
def k0_off2 (k0_t1 : Fin k0_t1_loop.trips) : Fin 3 → Nat :=
  let c0_15 : Index := 0#32
  let c1_i32 : BitVec 32 := 1#32
  let c1_i32_10 : BitVec 32 := 1#32
  let arg6 : BitVec 32 := Scf.iv c1_i32 c1_i32_10 k0_t1
  let c512_i32_14 : BitVec 32 := 512#32
  let v68 : BitVec 32 := Scalar.muli arg6 c512_i32_14
  let v69 : BitVec 32 := v68
  let v71 : Index := Scalar.indexCast v69
  let c0_16 : Index := 0#32
  ![0, v71.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S256x4_S256x4_0_0 : ∀ a, (![0, 0] : Fin 2 → Nat) a + S256x4.size a ≤ S256x4.size a
  h_S256x4 : 0 < S256x4.numel
  inb_S256_S256_0 : ∀ a, (![0] : Fin 1 → Nat) a + S256.size a ≤ S256.size a
  h_S256 : 0 < S256.numel
  shapeCasts_S256_S1x256 : S256.ShapeCasts S1x256
  shapeCasts_S1x256_S1x256 : S1x256.ShapeCasts S1x256
  broadcasts_S1x256_S512x256 : S1x256.Broadcasts S512x256
  slices_S256x4_o0_0_S256x1 : S256x4.Slices ![0, 0] S256x1
  shapeCasts_S256x1_S256 : S256x1.ShapeCasts S256
  slices_S256x4_o0_1_S256x1 : S256x4.Slices ![0, 1] S256x1
  slices_S256x4_o0_2_S256x1 : S256x4.Slices ![0, 2] S256x1
  slices_S256x4_o0_3_S256x1 : S256x4.Slices ![0, 3] S256x1
  inb_S1x4096x256_S1x512x256_0_0_0 : ∀ a, (![0, 0, 0] : Fin 3 → Nat) a + S1x512x256.size a ≤ S1x4096x256.size a
  h_S1x512x256 : 0 < S1x512x256.numel
  shapeCasts_S1x512x256_S512x256 : S1x512x256.ShapeCasts S512x256
  slices_S512x256_o0_0_S509x256 : S512x256.Slices ![0, 0] S509x256
  concatenates_S3x256_S509x256_S512x256_d0 : Shape.Concatenates [S3x256, S509x256] S512x256 0
  slices_S512x256_o0_0_S510x256 : S512x256.Slices ![0, 0] S510x256
  concatenates_S2x256_S510x256_S512x256_d0 : Shape.Concatenates [S2x256, S510x256] S512x256 0
  slices_S512x256_o0_0_S511x256 : S512x256.Slices ![0, 0] S511x256
  concatenates_S1x256_S511x256_S512x256_d0 : Shape.Concatenates [S1x256, S511x256] S512x256 0
  shapeCasts_S512x256_S1x512x256 : S512x256.ShapeCasts S1x512x256
  h_S1x520x256 : 0 < S1x520x256.numel
  shapeCasts_S1x520x256_S520x256 : S1x520x256.ShapeCasts S520x256
  slices_S520x256_o8_0_S512x256 : S520x256.Slices ![8, 0] S512x256
  slices_S520x256_o5_0_S512x256 : S520x256.Slices ![5, 0] S512x256
  slices_S520x256_o6_0_S512x256 : S520x256.Slices ![6, 0] S512x256
  slices_S520x256_o7_0_S512x256 : S520x256.Slices ![7, 0] S512x256
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x520x256.size a ≤ S1x4096x256.size a
  k0_mult2_dvd : ∀ k0_t1 : Fin k0_t1_loop.trips, 512 ∣ (k0_mult2 k0_t1).toNat
  k0_off2_inb : ∀ k0_t1 : Fin k0_t1_loop.trips, ∀ a, (k0_off2 k0_t1) a + S1x512x256.size a ≤ S1x4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x2048.size a
  hwx0_0 : ∀ i : grid0.Coords, EltTy.bits .f32 = 32 ∨ (Rect.block (s := S4x4096x2048) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4.size a ≤ S2048x4.size a
  hwx0_1 : ∀ i : grid0.Coords, EltTy.bits .f32 = 32 ∨ (Rect.block (s := S2048x4) S256x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S2048.size a
  hwx0_2 : ∀ i : grid0.Coords, EltTy.bits .f32 = 32 ∨ (Rect.block (s := S2048) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x256.size a ≤ S4x4096x2048.size a
  hwx0_3 : ∀ i : grid0.Coords, EltTy.bits .f32 = 32 ∨ (Rect.block (s := S4x4096x2048) S1x4096x256.size (cc0_transform_3 i) (hinb0_3 i)).WholeWords (EltTy.packing .f32)

variable [Facts₀]

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x4 : Shape := ⟨2, ![2048, 4]⟩
abbrev S2048 : Shape := ⟨1, ![2048]⟩
abbrev S_ : Shape := ⟨0, ![]⟩
abbrev S4x4099x2048 : Shape := ⟨3, ![4, 4099, 2048]⟩
abbrev S1x1x2048 : Shape := ⟨3, ![1, 1, 2048]⟩
abbrev S2048x1 : Shape := ⟨2, ![2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S2048, .f32⟩
  | .hbm, ⟨3, _⟩ => ⟨S_, .i32⟩
  | .hbm, ⟨4, _⟩ => ⟨S_, .f32⟩
  | .hbm, ⟨5, _⟩ => ⟨S4x4099x2048, .f32⟩
  | .hbm, ⟨6, _⟩ => ⟨S1x1x2048, .f32⟩
  | .hbm, ⟨7, _⟩ => ⟨S4x4096x2048, .f32⟩
  | .hbm, ⟨8, _⟩ => ⟨S2048x1, .f32⟩
  | .hbm, ⟨9, _⟩ => ⟨S2048, .f32⟩
  | .hbm, ⟨10, _⟩ => ⟨S1x1x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S2048x1, .f32⟩
  | .hbm, ⟨17, _⟩ => ⟨S2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S2048x1, .f32⟩
  | .hbm, ⟨24, _⟩ => ⟨S2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S2048x1, .f32⟩
  | .hbm, ⟨31, _⟩ => ⟨S2048, .f32⟩
  | .hbm, ⟨32, _⟩ => ⟨S1x1x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]

class Facts₀ : Prop where
  pads_S4x4096x2048_S4x4099x2048_000_300_000 : S4x4096x2048.Pads (![0, 3, 0] : Fin 3 → Nat) ![0, 0, 0] ![0, 0, 0] S4x4099x2048
  h_S_ : 0 < S_.numel
  bcast_S2048_S1x1x2048_2 : S2048.BroadcastsInDim S1x1x2048 (![2] : Fin 1 → Fin S1x1x2048.rank)
  slices_S4x4099x2048_S4x4096x2048_0_0_0 : S4x4099x2048.Slices ![0, 0, 0] S4x4096x2048
  slices_S2048x4_S2048x1_0_0 : S2048x4.Slices ![0, 0] S2048x1
  shapeCasts_S2048x1_S2048 : S2048x1.ShapeCasts S2048
  bcast_S1x1x2048_S4x4096x2048_0_1_2 : S1x1x2048.BroadcastsInDim S4x4096x2048 (![0, 1, 2] : Fin 3 → Fin S4x4096x2048.rank)
  slices_S4x4099x2048_S4x4096x2048_0_1_0 : S4x4099x2048.Slices ![0, 1, 0] S4x4096x2048
  slices_S2048x4_S2048x1_0_1 : S2048x4.Slices ![0, 1] S2048x1
  slices_S4x4099x2048_S4x4096x2048_0_2_0 : S4x4099x2048.Slices ![0, 2, 0] S4x4096x2048
  slices_S2048x4_S2048x1_0_2 : S2048x4.Slices ![0, 2] S2048x1
  slices_S4x4099x2048_S4x4096x2048_0_3_0 : S4x4099x2048.Slices ![0, 3, 0] S4x4096x2048
  slices_S2048x4_S2048x1_0_3 : S2048x4.Slices ![0, 3] S2048x1

variable [Facts₀]

class Facts : Prop extends Facts₀ where

variable [Facts]
-- ==== Proof.Spec.lean ====
/-
  The causal four-tap depthwise filter with a residual, as one function of the argument arrays.

  For an array `x` of extents [B, T, C], taps `w` of extents [C, 4] and a bias `b` of extent [C],
  the value at (n, t, c) is

      x[n,t,c] + ((((b[c] + w[c,0] · x[n,t-3,c]) + w[c,1] · x[n,t-2,c]) + w[c,2] · x[n,t-1,c]) + w[c,3] · x[n,t,c])

  on the extended reals, an entry before the start of the time axis read as 0, the sums grouped
  exactly as written. The entry depends on `x` only along the time axis at the one pair (n, c), on
  `w` only at row c and on `b` only at c: so the filter of a block of channels of one batch entry is
  the block of the filter (`filt_congr`).
-/
import Idealize.ShloMosaic.PureOps.Ideal
import Idealize.ShloMosaic.Lib.ValueIdx

noncomputable section

namespace Cert.Conv

open Idealize.ShloMosaic Idealize.ShloMosaic.ValueIdx

variable {B T C : Nat}

/-- The array `s` steps back along the time axis; 0 before the start. -/
def tap (x : (⟨3, ![B, T, C]⟩ : Shape).Idx → EReal) (s : Nat) (n : Fin B) (t : Fin T) (c : Fin C) : EReal :=
  if h : s ≤ t.val then x (ix3 n ⟨t.val - s, by have := t.isLt; omega⟩ c) else 0

/-- No step back is the entry itself. -/
theorem tap_zero (x : (⟨3, ![B, T, C]⟩ : Shape).Idx → EReal) (n : Fin B) (t : Fin T) (c : Fin C) :
    tap x 0 n t c = x (ix3 n t c) := by
  unfold tap
  rw [dif_pos (Nat.zero_le _)]
  exact congrArg x (congrArg (fun u => ix3 n u c) (Fin.ext (Nat.sub_zero _)))

/-- A step back that stays inside the axis reads the array there. -/
theorem tap_of_le (x : (⟨3, ![B, T, C]⟩ : Shape).Idx → EReal) (s : Nat) (n : Fin B) (t u : Fin T) (c : Fin C)
    (h : u.val + s = t.val) : tap x s n t c = x (ix3 n u c) := by
  unfold tap
  rw [dif_pos (by omega)]
  exact congrArg x (congrArg (fun v => ix3 n v c) (Fin.ext (by show t.val - s = u.val; omega)))

/-- A step back past the start reads 0. -/
theorem tap_of_lt (x : (⟨3, ![B, T, C]⟩ : Shape).Idx → EReal) (s : Nat) (n : Fin B) (t : Fin T) (c : Fin C)
    (h : t.val < s) : tap x s n t c = 0 := by
  unfold tap
  rw [dif_neg (by omega)]

/-- The filter's value at (n, t, c). -/
def filt (x : (⟨3, ![B, T, C]⟩ : Shape).Idx → EReal) (w : (⟨2, ![C, 4]⟩ : Shape).Idx → EReal)
    (b : (⟨1, ![C]⟩ : Shape).Idx → EReal) (n : Fin B) (t : Fin T) (c : Fin C) : EReal :=
  x (ix3 n t c) + ((((b (ix1 c) + w (ix2 c (0 : Fin 4)) * tap x 3 n t c) + w (ix2 c (1 : Fin 4)) * tap x 2 n t c)
    + w (ix2 c (2 : Fin 4)) * tap x 1 n t c) + w (ix2 c (3 : Fin 4)) * x (ix3 n t c))

/-- The filter as an array. -/
def conv (x : (⟨3, ![B, T, C]⟩ : Shape).Idx → EReal) (w : (⟨2, ![C, 4]⟩ : Shape).Idx → EReal)
    (b : (⟨1, ![C]⟩ : Shape).Idx → EReal) : (⟨3, ![B, T, C]⟩ : Shape).Idx → EReal :=
  fun i => filt x w b (i 0) (i 1) (i 2)

theorem conv_ix3 (x : (⟨3, ![B, T, C]⟩ : Shape).Idx → EReal) (w : (⟨2, ![C, 4]⟩ : Shape).Idx → EReal)
    (b : (⟨1, ![C]⟩ : Shape).Idx → EReal) (n : Fin B) (t : Fin T) (c : Fin C) :
    conv x w b (ix3 n t c) = filt x w b n t c := rfl

/-- The array at an index given by its three coordinates. -/
theorem conv_apply_of (x : (⟨3, ![B, T, C]⟩ : Shape).Idx → EReal) (w : (⟨2, ![C, 4]⟩ : Shape).Idx → EReal)
    (b : (⟨1, ![C]⟩ : Shape).Idx → EReal) (i : (⟨3, ![B, T, C]⟩ : Shape).Idx) (n : Fin B) (t : Fin T) (c : Fin C)
    (h0 : (i 0).val = n.val) (h1 : (i 1).val = t.val) (h2 : (i 2).val = c.val) : conv x w b i = filt x w b n t c := by
  obtain rfl : i = ix3 n t c := funext fun a => match a with
    | ⟨0, _⟩ => Fin.ext h0
    | ⟨1, _⟩ => Fin.ext h1
    | ⟨2, _⟩ => Fin.ext h2
  rfl

/-- The filter sees its arrays only along the time axis of one (batch entry, channel) pair: two
    settings that agree there have the same value. -/
theorem filt_congr {B' C' : Nat} (x : (⟨3, ![B, T, C]⟩ : Shape).Idx → EReal) (x' : (⟨3, ![B', T, C']⟩ : Shape).Idx → EReal)
    (w : (⟨2, ![C, 4]⟩ : Shape).Idx → EReal) (w' : (⟨2, ![C', 4]⟩ : Shape).Idx → EReal)
    (b : (⟨1, ![C]⟩ : Shape).Idx → EReal) (b' : (⟨1, ![C']⟩ : Shape).Idx → EReal)
    (n : Fin B) (n' : Fin B') (c : Fin C) (c' : Fin C')
    (hx : ∀ t : Fin T, x (ix3 n t c) = x' (ix3 n' t c')) (hw : ∀ k : Fin 4, w (ix2 c k) = w' (ix2 c' k))
    (hb : b (ix1 c) = b' (ix1 c')) (t : Fin T) : filt x w b n t c = filt x' w' b' n' t c' := by
  have ht : ∀ s, tap x s n t c = tap x' s n' t c' := fun s => by
    unfold tap
    by_cases h : s ≤ t.val
    · rw [dif_pos h, dif_pos h]; exact hx _
    · rw [dif_neg h, dif_neg h]
  unfold filt
  rw [hx t, hb, hw 0, hw 1, hw 2, hw 3, ht 3, ht 2, ht 1]

end Cert.Conv

end
-- ==== Proof.Payload.lean ====
/-
  What the kernel's body stores, read at an index on the extended reals.

  The body handles the 4096 rows of its block in eight chunks of 512. The first chunk's taps are the
  chunk itself moved down 3, 2, 1 and 0 rows with zero rows put in front; a later chunk loads its 512
  rows together with the 8 rows before them and takes its taps as the rows 5, 6, 7 and 8 further down
  that window. Either way the row r of the chunk that starts at row o receives

      x[o+r] + ((((b + w0 · x[o+r-3]) + w1 · x[o+r-2]) + w2 · x[o+r-1]) + w3 · x[o+r])

  channel by channel, a row before the block's first read as 0: the filter of `Cert.Conv` on the
  block's own arrays (`first_chunk_apply`, `later_chunk_apply`).
-/
import proofs.«156720_j6777458393273_2_alg».proof.Proof.Gen.KernelIdeal.Skeleton
import proofs.«156720_j6777458393273_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Conv

/-! ## Layout steps the body uses -/

/-- A column [a, 1] cast to a vector [a] reads, at i, the column at (i, 0). -/
theorem shapeCast_a1_a_apply {a : ℕ} {α : Type} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Rows moved down by `s` with `s` rows of `z` put in front: row r is row r - s of the array, `z` above. -/
theorem shifted_apply {s m n c : Nat} {α : Type} (z : α) (X : (⟨2, ![n, c]⟩ : Shape).Idx → α)
    (hc : Shape.Concatenates [(⟨2, ![s, c]⟩ : Shape), ⟨2, ![m, c]⟩] ⟨2, ![n, c]⟩ 0)
    (hs : (⟨2, ![n, c]⟩ : Shape).Slices ![0, 0] ⟨2, ![m, c]⟩) (hsm : s + m = n) (r : Fin n) (q : Fin c) :
    concatenate ⟨2, ![n, c]⟩ 0 [⟨⟨2, ![s, c]⟩, broadcast ⟨2, ![s, c]⟩ z⟩,
        ⟨⟨2, ![m, c]⟩, extractStridedSlice ⟨2, ![m, c]⟩ ![0, 0] X hs⟩] hc (ix2 r q)
      = if h : s ≤ r.val then X (ix2 ⟨r.val - s, by have := r.isLt; omega⟩ q) else z := by
  by_cases h : s ≤ r.val
  · rw [dif_pos h]
    have hm : r.val - s < m := by have := r.isLt; omega
    refine (concatenate_pair_apply_right (t := ⟨2, ![n, c]⟩) (s₁ := ⟨2, ![s, c]⟩) (s₂ := ⟨2, ![m, c]⟩) (0 : Fin 2) _ _ hc (ix2 r q) rfl rfl (ix2 ⟨r.val - s, hm⟩ q)
      (fun b hb => ?_) ?_).trans ?_
    · match b with
      | ⟨0, _⟩ => exact absurd rfl hb
      | ⟨1, _⟩ => rfl
    · show r.val - s + s = r.val; omega
    · exact slice2_axis0_apply 0 X hs ⟨r.val - s, hm⟩ q ⟨r.val - s, by have := r.isLt; omega⟩ (by show r.val - s = 0 + (r.val - s); omega)
  · rw [dif_neg h]
    have hlt : r.val < s := by omega
    exact concatenate_pair_apply_left (t := ⟨2, ![n, c]⟩) (s₁ := ⟨2, ![s, c]⟩) (s₂ := ⟨2, ![m, c]⟩) (0 : Fin 2) _ _ hc (ix2 r q) rfl (ix2 ⟨r.val, hlt⟩ q)
      (fun b => by match b with
        | ⟨0, _⟩ => rfl
        | ⟨1, _⟩ => rfl)

/-! ## The weights' columns and the bias, as the body lays them over the rows -/

theorem bias_rows (v1 : Vec Ideal S256 .f32) (r : Fin 512) (q : Fin 256) :
    k0_pay2 (F := Ideal) v1 (ix2 r q) = v1 (ix1 q) := by
  unfold k0_pay2
  exact (broadcastTo_1b_ab_apply _ _ r q).trans ((congrFun (shapeCast_self _ _) _).trans (shapeCast_a_1a_apply v1 _ 0 q))

theorem col0 (v0 : Vec Ideal S256x4 .f32) (u : Fin 1) (q : Fin 256) :
    k0_pay3 (F := Ideal) v0 (ix2 u q) = v0 (ix2 q (0 : Fin 4)) := by
  unfold k0_pay3
  exact (shapeCast_a_1a_apply _ _ u q).trans ((shapeCast_a1_a_apply _ _ q).trans
    (slice2_axis1_apply 0 v0 _ q (0 : Fin 1) (0 : Fin 4) rfl))

theorem col1 (v0 : Vec Ideal S256x4 .f32) (u : Fin 1) (q : Fin 256) :
    k0_pay4 (F := Ideal) v0 (ix2 u q) = v0 (ix2 q (1 : Fin 4)) := by
  unfold k0_pay4
  exact (shapeCast_a_1a_apply _ _ u q).trans ((shapeCast_a1_a_apply _ _ q).trans
    (slice2_axis1_apply 1 v0 _ q (0 : Fin 1) (1 : Fin 4) rfl))

theorem col2 (v0 : Vec Ideal S256x4 .f32) (u : Fin 1) (q : Fin 256) :
    k0_pay5 (F := Ideal) v0 (ix2 u q) = v0 (ix2 q (2 : Fin 4)) := by
  unfold k0_pay5
  exact (shapeCast_a_1a_apply _ _ u q).trans ((shapeCast_a1_a_apply _ _ q).trans
    (slice2_axis1_apply 2 v0 _ q (0 : Fin 1) (2 : Fin 4) rfl))

theorem col3 (v0 : Vec Ideal S256x4 .f32) (u : Fin 1) (q : Fin 256) :
    k0_pay6 (F := Ideal) v0 (ix2 u q) = v0 (ix2 q (3 : Fin 4)) := by
  unfold k0_pay6
  exact (shapeCast_a_1a_apply _ _ u q).trans ((shapeCast_a1_a_apply _ _ q).trans
    (slice2_axis1_apply 3 v0 _ q (0 : Fin 1) (3 : Fin 4) rfl))

/-! ## The first chunk: rows 0 … 511 of the block -/

/-- Row r of the first chunk is the filter at row r: its taps are the chunk moved down 3, 2, 1 rows
    behind zero rows, which is where the filter reads 0 before the start. -/
theorem first_chunk_apply (x0 : Vec Ideal S1x4096x256 .f32) (v0 : Vec Ideal S256x4 .f32) (v1 : Vec Ideal S256 .f32)
    (v17 : Vec Ideal S1x512x256 .f32)
    (hv : ∀ (r' : Fin 512) (t' : Fin 4096) (q' : Fin 256), t'.val = r'.val →
      v17 (ix3 (0 : Fin 1) r' q') = x0 (ix3 (0 : Fin 1) t' q'))
    (u : Fin 1) (r : Fin 512) (q : Fin 256) (t : Fin 4096) (ht : t.val = r.val) :
    k0_pay7 (F := Ideal) v0 v1 v17 (ix3 u r q) = filt x0 v0 v1 (0 : Fin 1) t q := by
  have e18 : ∀ (r' : Fin 512) (t' : Fin 4096), t'.val = r'.val →
      shapeCast S512x256 v17 shapeCasts_S1x512x256_S512x256 (ix2 r' q) = x0 (ix3 (0 : Fin 1) t' q) :=
    fun r' t' h => (shapeCast_1ab_ab_apply v17 _ r' q).trans (hv r' t' q h)
  have etap : ∀ (s m : Nat) (hc : Shape.Concatenates [(⟨2, ![s, 256]⟩ : Shape), ⟨2, ![m, 256]⟩] ⟨2, ![512, 256]⟩ 0)
      (hs : (⟨2, ![512, 256]⟩ : Shape).Slices ![0, 0] ⟨2, ![m, 256]⟩) (hsm : s + m = 512),
      concatenate ⟨2, ![512, 256]⟩ 0 [⟨⟨2, ![s, 256]⟩, broadcast ⟨2, ![s, 256]⟩ (Scalar.ofBits (F := Ideal) .f32 0x00000000#32)⟩,
        ⟨⟨2, ![m, 256]⟩, extractStridedSlice ⟨2, ![m, 256]⟩ ![0, 0] (shapeCast S512x256 v17 shapeCasts_S1x512x256_S512x256) hs⟩] hc (ix2 r q)
        = tap x0 s (0 : Fin 1) t q := by
    intro s m hc hs hsm
    refine (shifted_apply _ _ hc hs hsm r q).trans ?_
    by_cases h : s ≤ r.val
    · rw [dif_pos h, tap_of_le x0 s 0 t ⟨t.val - s, by have := t.isLt; omega⟩ q (by show t.val - s + s = t.val; omega)]
      exact e18 _ _ (by show t.val - s = r.val - s; omega)
    · rw [dif_neg h, tap_of_lt x0 s 0 t q (by omega)]
      exact Ideal.ofBits_zero_f32
  have hb := bias_rows v1 r q
  have hw0 := (broadcastTo_1b_ab_apply (k0_pay3 (F := Ideal) v0) broadcasts_S1x256_S512x256 r q).trans (col0 v0 0 q)
  have hw1 := (broadcastTo_1b_ab_apply (k0_pay4 (F := Ideal) v0) broadcasts_S1x256_S512x256 r q).trans (col1 v0 0 q)
  have hw2 := (broadcastTo_1b_ab_apply (k0_pay5 (F := Ideal) v0) broadcasts_S1x256_S512x256 r q).trans (col2 v0 0 q)
  have hw3 := (broadcastTo_1b_ab_apply (k0_pay6 (F := Ideal) v0) broadcasts_S1x256_S512x256 r q).trans (col3 v0 0 q)
  have h3 := etap 3 509 concatenates_S3x256_S509x256_S512x256_d0 slices_S512x256_o0_0_S509x256 rfl
  have h2 := etap 2 510 concatenates_S2x256_S510x256_S512x256_d0 slices_S512x256_o0_0_S510x256 rfl
  have h1 := etap 1 511 concatenates_S1x256_S511x256_S512x256_d0 slices_S512x256_o0_0_S511x256 rfl
  have h0 := e18 r t ht
  unfold k0_pay7
  refine (shapeCast_ab_1ab_apply _ _ u r q).trans ?_
  unfold filt
  simp only [addf_apply, mulf_apply]
  rw [h0, hb, hw0, hw1, hw2, hw3, h3, h2, h1]

/-! ## A later chunk: 512 rows read together with the 8 rows before them -/

/-- Row r of a chunk whose 520-row window starts at row o of the block (so the chunk itself at row
    o + 8) is the filter at row o + 8 + r: its taps are the window's rows 5, 6, 7 and 8 further down. -/
theorem later_chunk_apply (x0 : Vec Ideal S1x4096x256 .f32) (v0 : Vec Ideal S256x4 .f32) (v1 : Vec Ideal S256 .f32)
    (v49 : Vec Ideal S1x520x256 .f32) (o : Nat)
    (hv : ∀ (r' : Fin 520) (t' : Fin 4096) (q' : Fin 256), t'.val = o + r'.val →
      v49 (ix3 (0 : Fin 1) r' q') = x0 (ix3 (0 : Fin 1) t' q'))
    (u : Fin 1) (r : Fin 512) (q : Fin 256) (t : Fin 4096) (ht : t.val = o + 8 + r.val) :
    k0_pay1 (F := Ideal) (k0_pay2 v1) (k0_pay3 v0) (k0_pay4 v0) (k0_pay5 v0) (k0_pay6 v0) v49 (ix3 u r q)
      = filt x0 v0 v1 (0 : Fin 1) t q := by
  have e50 : ∀ (r' : Fin 520) (t' : Fin 4096), t'.val = o + r'.val →
      shapeCast S520x256 v49 shapeCasts_S1x520x256_S520x256 (ix2 r' q) = x0 (ix3 (0 : Fin 1) t' q) :=
    fun r' t' h => (shapeCast_1ab_ab_apply v49 _ r' q).trans (hv r' t' q h)
  have etap : ∀ (d s : Nat) (hds : d + s = 8) (hs : (⟨2, ![520, 256]⟩ : Shape).Slices ![d, 0] ⟨2, ![512, 256]⟩),
      extractStridedSlice ⟨2, ![512, 256]⟩ ![d, 0] (shapeCast S520x256 v49 shapeCasts_S1x520x256_S520x256) hs (ix2 r q)
        = tap x0 s (0 : Fin 1) t q := by
    intro d s hds hs
    have hr := r.isLt
    have htl := t.isLt
    refine (slice2_axis0_apply d _ hs r q ⟨d + r.val, by omega⟩ rfl).trans ?_
    rw [tap_of_le x0 s 0 t ⟨t.val - s, by omega⟩ q (by show t.val - s + s = t.val; omega)]
    exact e50 _ _ (by show t.val - s = o + (d + r.val); omega)
  have hb := bias_rows v1 r q
  have hw0 := (broadcastTo_1b_ab_apply (k0_pay3 (F := Ideal) v0) broadcasts_S1x256_S512x256 r q).trans (col0 v0 0 q)
  have hw1 := (broadcastTo_1b_ab_apply (k0_pay4 (F := Ideal) v0) broadcasts_S1x256_S512x256 r q).trans (col1 v0 0 q)
  have hw2 := (broadcastTo_1b_ab_apply (k0_pay5 (F := Ideal) v0) broadcasts_S1x256_S512x256 r q).trans (col2 v0 0 q)
  have hw3 := (broadcastTo_1b_ab_apply (k0_pay6 (F := Ideal) v0) broadcasts_S1x256_S512x256 r q).trans (col3 v0 0 q)
  have h3 := etap 5 3 rfl slices_S520x256_o5_0_S512x256
  have h2 := etap 6 2 rfl slices_S520x256_o6_0_S512x256
  have h1 := etap 7 1 rfl slices_S520x256_o7_0_S512x256
  have h0 := (etap 8 0 rfl slices_S520x256_o8_0_S512x256).trans (tap_zero x0 0 t q)
  unfold k0_pay1
  refine (shapeCast_ab_1ab_apply _ _ u r q).trans ?_
  unfold filt
  simp only [addf_apply, mulf_apply]
  rw [h0, hb, hw0, hw1, hw2, hw3, h3, h2, h1]

end Cert.KernelIdeal.Pay

end
-- ==== Proof.Pieces.lean ====
/-
  What one grid point leaves in the output's staging buffer: the filter of the point's three blocks.

  The body writes the buffer in eight stores of 512 rows: the first chunk before its loop, then one
  per trip of the loop (trip k writes rows 512(k+1) … 512(k+1)+511, from a load of the input's rows
  512(k+1)-8 … 512(k+1)+511). Each stored value is the filter of the point's blocks at the rows it
  is stored to (`Cert.KernelIdeal.Pay`), and the eight stores cover the buffer: so the buffer ends
  holding the filter of the blocks, `block_eq`.
-/
import proofs.«156720_j6777458393273_2_alg».proof.Proof.Gen.KernelIdeal.Frame
import proofs.«156720_j6777458393273_2_alg».proof.Proof.Payload
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic Idealize.ShloMosaic.ValueIdx Cert.Conv Cert.KernelIdeal.Pay

theorem hz1 : (![0] : Fin 1 → Nat) = fun _ => 0 := funext fun a => by fin_cases a; rfl
theorem hz2 : (![0, 0] : Fin 2 → Nat) = fun _ => 0 := funext fun a => by fin_cases a <;> rfl

section AnyFloats
variable {F : FTy → Type} [FloatOps F]

/-- One trip of the loop makes one store: at the trip's rows, of the later-chunk value of the 520-row
    window it loaded. -/
theorem trip_piece (𝒱 : Variants) (c : Dev nD) (bd : Option 𝒱.V) (i : grid0.Coords)
    (arg2 : Memref sig .tc .vmem S1x4096x256 .f32) (harg2 : arg2.IsWhole) (arg3 : Memref sig .tc .vmem S256x4 .f32) (harg3 : arg3.IsWhole)
    (arg4 : Memref sig .tc .vmem S256 .f32) (harg4 : arg4.IsWhole) (arg5 : Memref sig .tc .vmem S1x4096x256 .f32) (harg5 : arg5.IsWhole)
    (v4 : FVec F S512x256 .f32) (v7 : FVec F S1x256 .f32) (v10 : FVec F S1x256 .f32) (v13 : FVec F S1x256 .f32) (v16 : FVec F S1x256 .f32)
    (X_arg2 : BufTy.Contents (Elt F) arg2.view.ty) (k : Fin k0_t1_loop.trips) :
    tripL_k0_t1 (F := F) 𝒱 c bd i arg2 harg2 arg3 harg3 arg4 harg4 arg5 harg5 v4 v7 v10 v13 v16 X_arg2 k
      = [⟨Rect.unit (k0_off2 k) S1x512x256.size (k0_off2_inb k),
          k0_pay1 v4 v7 v10 v13 v16 (View.readAt (Elt F) arg2.view (Rect.unit (s := S1x4096x256) (k0_off1 k) S1x520x256.size (k0_off1_inb k)).toLoadRect X_arg2)⟩] := by
  unfold tripL_k0_t1 trip_k0_t1
  rfl

/-- The whole body's stores: the loop's, over the first chunk's. -/
theorem run_pieces (c : Dev nD) (i : grid0.Coords)
    (arg2 : Memref sig .tc .vmem S1x4096x256 .f32) (harg2 : arg2.IsWhole) (arg3 : Memref sig .tc .vmem S256x4 .f32) (harg3 : arg3.IsWhole)
    (arg4 : Memref sig .tc .vmem S256 .f32) (harg4 : arg4.IsWhole) (arg5 : Memref sig .tc .vmem S1x4096x256 .f32) (harg5 : arg5.IsWhole)
    (x0 : Vec F S1x4096x256 .f32) (x1 : Vec F S256x4 .f32) (x2 : Vec F S256 .f32) :
    (kernelRun0_A c i arg2 harg2 arg3 harg3 arg4 harg4 arg5 harg5 x0 x1 x2).1
      = pb_k0_t1 (F := F) Variants.none c none i arg2 harg2 arg3 harg3 arg4 harg4 arg5 harg5
          (k0_pay2 x2) (k0_pay3 x1) (k0_pay4 x1) (k0_pay5 x1) (k0_pay6 x1) (harg2.unread x0) k0_t1_loop.trips
        ++ [⟨Rect.unit ![0, 0, 0] S1x512x256.size inb_S1x4096x256_S1x512x256_0_0_0,
            k0_pay7 x1 x2 (View.ld x0 (Rect.unit ![0, 0, 0] S1x512x256.size inb_S1x4096x256_S1x512x256_0_0_0))⟩] := by
  unfold kernelRun0_A
  dsimp only
  sl_unfold_run_names
  simp only [View.readAt_eq_ld, harg2.read_unread, harg3.read_unread, harg4.read_unread,
    View.ld_unit_zero (S := S256x4) hz2, View.ld_unit_zero (S := S256) hz1]

end AnyFloats

/-! ## Each store is the filter at the rows it is stored to -/

/-- The first chunk's store. -/
theorem first_agree (x0 : Vec Ideal S1x4096x256 .f32) (x1 : Vec Ideal S256x4 .f32) (x2 : Vec Ideal S256 .f32)
    (y : S1x512x256.Idx) :
    k0_pay7 (F := Ideal) x1 x2 (View.ld x0 (Rect.unit ![0, 0, 0] S1x512x256.size inb_S1x4096x256_S1x512x256_0_0_0)) y
      = conv x0 x1 x2 ((Rect.unit (s := S1x4096x256) ![0, 0, 0] S1x512x256.size inb_S1x4096x256_S1x512x256_0_0_0).emb y) := by
  obtain ⟨u, r, q, rfl⟩ : ∃ (u : Fin 1) (r : Fin 512) (q : Fin 256), y = ix3 u r q := ⟨y 0, y 1, y 2, eq_ix3 y⟩
  have hr := r.isLt
  refine (first_chunk_apply x0 x1 x2 _ (fun r' t' q' h => ?_) u r q ⟨r.val, by omega⟩ rfl).trans
    (conv_apply_of x0 x1 x2 _ (0 : Fin 1) ⟨r.val, by omega⟩ q ?_ ?_ ?_).symm
  · show x0 _ = x0 _
    refine congrArg x0 (funext fun a => Fin.ext ?_)
    match a with
    | ⟨0, _⟩ => rfl
    | ⟨1, _⟩ => show 0 + 1 * r'.val = t'.val; omega
    | ⟨2, _⟩ => show 0 + 1 * q'.val = q'.val; omega
  · show 0 + 1 * u.val = 0; omega
  · show 0 + 1 * r.val = r.val; omega
  · show 0 + 1 * q.val = q.val; omega

/-- A trip's store. -/
theorem trip_agree (arg2 : Memref sig .tc .vmem S1x4096x256 .f32) (harg2 : arg2.IsWhole)
    (x0 : Vec Ideal S1x4096x256 .f32) (x1 : Vec Ideal S256x4 .f32) (x2 : Vec Ideal S256 .f32)
    (k : Fin k0_t1_loop.trips) (y : S1x512x256.Idx) :
    k0_pay1 (F := Ideal) (k0_pay2 x2) (k0_pay3 x1) (k0_pay4 x1) (k0_pay5 x1) (k0_pay6 x1)
        (View.readAt (Elt Ideal) arg2.view (Rect.unit (s := S1x4096x256) (k0_off1 k) S1x520x256.size (k0_off1_inb k)).toLoadRect (harg2.unread x0)) y
      = conv x0 x1 x2 ((Rect.unit (s := S1x4096x256) (k0_off2 k) S1x512x256.size (k0_off2_inb k)).emb y) := by
  obtain ⟨u, r, q, rfl⟩ : ∃ (u : Fin 1) (r : Fin 512) (q : Fin 256), y = ix3 u r q := ⟨y 0, y 1, y 2, eq_ix3 y⟩
  have hr := r.isLt
  have hk : k.val < 7 := Nat.lt_of_lt_of_le k.isLt k0_t1_abs.2.1
  have e1 := k0_off1_eq k
  have e2 := k0_off2_eq k
  rw [View.readAt_eq_ld, harg2.read_unread]
  refine (later_chunk_apply x0 x1 x2 _ (512 * k.val + 504) (fun r' t' q' h => ?_) u r q
      ⟨512 * k.val + 512 + r.val, by omega⟩ (by show 512 * k.val + 512 + r.val = 512 * k.val + 504 + 8 + r.val; omega)).trans
    (conv_apply_of x0 x1 x2 _ (0 : Fin 1) ⟨512 * k.val + 512 + r.val, by omega⟩ q ?_ ?_ ?_).symm
  · show x0 _ = x0 _
    have hr' := r'.isLt
    refine congrArg x0 (funext fun a => Fin.ext ?_)
    match a with
    | ⟨0, _⟩ => show k0_off1 k 0 + 1 * 0 = 0; rw [e1]; rfl
    | ⟨1, _⟩ => show k0_off1 k 1 + 1 * r'.val = t'.val; rw [e1]; show 512 * k.val + 504 + 1 * r'.val = t'.val; omega
    | ⟨2, _⟩ => show k0_off1 k 2 + 1 * q'.val = q'.val; rw [e1]; show 0 + 1 * q'.val = q'.val; omega
  · show k0_off2 k 0 + 1 * u.val = 0; rw [e2]; show 0 + 1 * u.val = 0; omega
  · show k0_off2 k 1 + 1 * r.val = 512 * k.val + 512 + r.val; rw [e2]; show 512 * k.val + 512 + 1 * r.val = _; omega
  · show k0_off2 k 2 + 1 * q.val = q.val; rw [e2]; show 0 + 1 * q.val = q.val; omega

/-- The loop's stores up to any trip. -/
theorem pb_agree (𝒱 : Variants) (c : Dev nD) (bd : Option 𝒱.V) (i : grid0.Coords)
    (arg2 : Memref sig .tc .vmem S1x4096x256 .f32) (harg2 : arg2.IsWhole) (arg3 : Memref sig .tc .vmem S256x4 .f32) (harg3 : arg3.IsWhole)
    (arg4 : Memref sig .tc .vmem S256 .f32) (harg4 : arg4.IsWhole) (arg5 : Memref sig .tc .vmem S1x4096x256 .f32) (harg5 : arg5.IsWhole)
    (x0 : Vec Ideal S1x4096x256 .f32) (x1 : Vec Ideal S256x4 .f32) (x2 : Vec Ideal S256 .f32) :
    ∀ (n : ℕ), ∀ p ∈ pb_k0_t1 (F := Ideal) 𝒱 c bd i arg2 harg2 arg3 harg3 arg4 harg4 arg5 harg5
        (k0_pay2 x2) (k0_pay3 x1) (k0_pay4 x1) (k0_pay5 x1) (k0_pay6 x1) (harg2.unread x0) n,
      ∀ x : p.1.shape.Idx, p.2 x = conv x0 x1 x2 (p.1.emb x) := by
  intro n
  induction n with
  | zero =>
    intro p hp
    rw [pb_k0_t1.eq_1] at hp
    exact absurd hp List.not_mem_nil
  | succ n ih =>
    intro p hp
    rw [pb_k0_t1.eq_2] at hp
    unfold pb_k0_t1Step at hp
    by_cases h : n < k0_t1_loop.trips
    · rw [dif_pos h, trip_piece] at hp
      rcases List.mem_append.mp hp with hp | hp
      · obtain rfl := List.mem_singleton.mp hp
        exact trip_agree arg2 harg2 x0 x1 x2 ⟨n, h⟩
      · exact ih p hp
    · rw [dif_neg h] at hp
      exact ih p hp

/-! ## The buffer after the body -/

/-- What the body leaves in the output's staging buffer is the filter of the three input blocks. -/
theorem block_eq (c : Dev nD) (i : grid0.Coords)
    (arg2 : Memref sig .tc .vmem S1x4096x256 .f32) (harg2 : arg2.IsWhole) (arg3 : Memref sig .tc .vmem S256x4 .f32) (harg3 : arg3.IsWhole)
    (arg4 : Memref sig .tc .vmem S256 .f32) (harg4 : arg4.IsWhole) (arg5 : Memref sig .tc .vmem S1x4096x256 .f32) (harg5 : arg5.IsWhole)
    (x0 : Vec Ideal S1x4096x256 .f32) (x1 : Vec Ideal S256x4 .f32) (x2 : Vec Ideal S256 .f32) :
    out0_A_3 (F := Ideal) c i arg2 harg2 arg3 harg3 arg4 harg4 arg5 harg5 x0 x1 x2 = conv x0 x1 x2 := by
  unfold out0_A_3
  rw [View.read_writes_junk_eq_canon]
  funext y
  refine View.canon_apply_of_pieces (conv x0 x1 x2) _ (fun p hp => ?_) y
    (cover0_A_3 c i arg2 harg2 arg3 harg3 arg4 harg4 arg5 harg5 x0 x1 x2 y)
  rw [run_pieces] at hp
  rcases List.mem_append.mp hp with hp | hp
  · exact pb_agree Variants.none c none i arg2 harg2 arg3 harg3 arg4 harg4 arg5 harg5 x0 x1 x2 _ p hp
  · obtain rfl := List.mem_singleton.mp hp
    exact first_agree x0 x1 x2

end Cert.KernelIdeal.Pieces

end
-- ==== Proof.Whole.lean ====
/-
  From the grid's blocks to the whole result array.

  Grid point (n, j) of the 4 × 8 grid works on batch entry n and channels 256j … 256j+255: its input
  blocks are that slab of x (all 4096 rows), those 256 rows of the weights and those 256 entries of
  the bias, and it writes back the same slab of the result. The filter at (n, t, c) reads x only at
  (n, ·, c), the weights only at row c and the bias only at c, all inside the point's slab: so the
  filter of the blocks is the block of the filter of the whole arrays (`flushed_eq`). The 32 slabs
  cover the result (`cover`), which therefore ends holding the filter of the argument arrays
  (`final`, `run`).
-/
import proofs.«156720_j6777458393273_2_alg».proof.Proof.Gen.KernelIdeal.Value
import proofs.«156720_j6777458393273_2_alg».proof.Proof.Pieces
import Idealize.ShloMosaic.Lib.Pipeline.Value

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Conv

variable (m : (ℓ : Loc nD τ sig) → Buf (Elt Ideal) ℓ) (ρ : Dev nD → PrngReg)

/-- Where each window's block sits at a grid point, relative to the output's: the same batch entry and
    channel block for x, the channel block for the weights and the bias; always the whole time axis. -/
theorem idx_facts : ∀ t : Fin cfg0.N,
    win0_0.index t (0 : Fin 3) = win0_3.index t (0 : Fin 3) ∧ win0_0.index t (1 : Fin 3) = 0
    ∧ win0_0.index t (2 : Fin 3) = win0_3.index t (2 : Fin 3)
    ∧ win0_1.index t (0 : Fin 2) = win0_3.index t (2 : Fin 3) ∧ win0_1.index t (1 : Fin 2) = 0
    ∧ win0_2.index t (0 : Fin 1) = win0_3.index t (2 : Fin 3)
    ∧ win0_3.index t (0 : Fin 3) ≤ 3 ∧ win0_3.index t (1 : Fin 3) = 0 ∧ win0_3.index t (2 : Fin 3) ≤ 7 :=
  (by decide +kernel : ∀ t : Fin grid0.N, _)

/-- Every (batch entry, channel block) pair is some grid point's. -/
theorem idx_onto : ∀ (n : Fin 4) (j : Fin 8), ∃ t : Fin cfg0.N, win0_3.index t = ![n.val, 0, j.val] :=
  (by decide +kernel : ∀ (n : Fin 4) (j : Fin 8), ∃ t : Fin grid0.N, win0_3.index t = ![n.val, 0, j.val])

/-- The filter of the whole argument arrays, as the region finds them. -/
abbrev result (c : Dev nD) : Buf (Elt Ideal) ((c : Thread nD τ).loc main_v0) :=
  conv (V m c main_arg0) (V m c main_arg1) (V m c main_arg2)

/-- What point `t` writes back is block `t` of the filter of the whole arrays. -/
theorem flushed_eq (c : Dev nD) (t : Fin cfg0.N) :
    (dats m 0 c).flushed 3 t = ((cfg0.win 3).blk t).view.read (Elt Ideal) (result m c) := by
  rw [flushed3_A, Cert.KernelIdeal.Pieces.block_eq]
  obtain ⟨e0, e1, e2, e3, e4, e5, b0, e6, b2⟩ := idx_facts t
  funext j
  obtain ⟨u, r, q, rfl⟩ : ∃ (u : Fin 1) (r : Fin 4096) (q : Fin 256), j = ix3 u r q := ⟨j 0, j 1, j 2, eq_ix3 j⟩
  have hu : u.val = 0 := by omega
  have hq := q.isLt
  show conv (iblk m c 0 t) (iblk m c 1 t) (iblk m c 2 t) (ix3 u r q)
    = conv (V m c main_arg0) (V m c main_arg1) (V m c main_arg2) (((cfg0.win 3).blk t).view.emb (ix3 u r q))
  refine Eq.trans ?_ (conv_apply_of (V m c main_arg0) (V m c main_arg1) (V m c main_arg2) _
    (⟨win0_3.index t (0 : Fin 3), by omega⟩ : Fin 4) r (⟨win0_3.index t (2 : Fin 3) * 256 + q.val, by omega⟩ : Fin 2048) ?_ ?_ ?_).symm
  · refine (conv_ix3 _ _ _ u r q).trans (filt_congr _ _ _ _ _ _ u _ q _ (fun t' => ?_) (fun k => ?_) ?_ r)
    · show V m c main_arg0 (((cfg0.win 0).blk t).view.emb (ix3 u t' q)) = V m c main_arg0 _
      refine congrArg _ (funext fun a => Fin.ext ?_)
      match a with
      | ⟨0, _⟩ => show win0_0.index t (0 : Fin 3) * 1 + 1 * u.val = win0_3.index t (0 : Fin 3); omega
      | ⟨1, _⟩ => show win0_0.index t (1 : Fin 3) * 4096 + 1 * t'.val = t'.val; omega
      | ⟨2, _⟩ => show win0_0.index t (2 : Fin 3) * 256 + 1 * q.val = win0_3.index t (2 : Fin 3) * 256 + q.val; omega
    · show V m c main_arg1 (((cfg0.win 1).blk t).view.emb (ix2 q k)) = V m c main_arg1 _
      refine congrArg _ (funext fun a => Fin.ext ?_)
      match a with
      | ⟨0, _⟩ => show win0_1.index t (0 : Fin 2) * 256 + 1 * q.val = win0_3.index t (2 : Fin 3) * 256 + q.val; omega
      | ⟨1, _⟩ => show win0_1.index t (1 : Fin 2) * 4 + 1 * k.val = k.val; omega
    · show V m c main_arg2 (((cfg0.win 2).blk t).view.emb (ix1 q)) = V m c main_arg2 _
      refine congrArg _ (funext fun a => Fin.ext ?_)
      match a with
      | ⟨0, _⟩ => show win0_2.index t (0 : Fin 1) * 256 + 1 * q.val = win0_3.index t (2 : Fin 3) * 256 + q.val; omega
  · show win0_3.index t (0 : Fin 3) * 1 + 1 * u.val = win0_3.index t (0 : Fin 3); omega
  · show win0_3.index t (1 : Fin 3) * 4096 + 1 * r.val = r.val; omega
  · show win0_3.index t (2 : Fin 3) * 256 + 1 * q.val = win0_3.index t (2 : Fin 3) * 256 + q.val; omega

/-- An index of the result is in point `t`'s block iff each coordinate is in the block's range. -/
theorem mem_blk (t : Fin cfg0.N) (i : S4x4096x2048.Idx) :
    i ∈ ((cfg0.win 3).blk t).view.set ↔ ∀ a : Fin 3, win0_3.index t a * S1x4096x256.size a ≤ (i a).val
      ∧ (i a).val < win0_3.index t a * S1x4096x256.size a + S1x4096x256.size a := by
  show i ∈ ((View.whole main_v0).slice (win0_3.rect t)).set ↔ _
  rw [View.set_slice_whole, Rect.mem_set_unit]
  exact Iff.rfl

/-- Every index of the result is in the block of the point of its batch entry and channel block. -/
theorem cover (i : S4x4096x2048.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 2048 := (i 2).isLt
  obtain ⟨t, ht⟩ := idx_onto ⟨(i 0).val, hi0⟩ ⟨(i 2).val / 256, by omega⟩
  have q0 : win0_3.index t (0 : Fin 3) = (i 0).val := congrFun ht 0
  have q1 : win0_3.index t (1 : Fin 3) = 0 := congrFun ht 1
  have q2 : win0_3.index t (2 : Fin 3) = (i 2).val / 256 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 256 ≤ (i 2).val ∧ (i 2).val < win0_3.index t (2 : Fin 3) * 256 + 256; omega

/-- The result array after the run is the filter of the argument arrays. -/
theorem final (c : Dev nD) : (dats m 0 c).arrAt 3 cfg0.N
    = conv (m ((c : Thread nD τ).loc main_arg0)) (m ((c : Thread nD τ).loc main_arg1)) (m ((c : Thread nD τ).loc main_arg2)) :=
  (dats m 0 c).arrAt_eq_of_cover 3 (result m c) (fun t _ => flushed_eq m c t) cover

/-- The run, read: the result at the filter of the arguments, the arguments unchanged. -/
theorem run : θ_run defs (onTc (τ := τ) (main (F := Ideal))) ⟨m, fun _ => 0, ρ⟩ fun r => ∀ c : Dev nD,
      r.2.mem ((c : Thread nD τ).loc main_v0)
        = conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefValue.lean ====
/-
  The reference, read at an index, is the filter of `Cert.Conv`.

  The reference pads x with three zero rows in front of the time axis, takes the four windows of 4096
  rows that start at padded rows 0, 1, 2, 3 — the window from padded row d holds x moved back 3 - d
  steps, 0 where that is before the start —, multiplies window d by column d of the weights laid over
  batch and time, adds the four products one after the other onto the bias laid over batch and time,
  and adds x. Entry by entry that is the filter, with each product's two factors in the other order.
-/
import proofs.«156720_j6777458393273_2_alg».proof.Proof.Gen.ReferenceIdeal.Read
import proofs.«156720_j6777458393273_2_alg».proof.Proof.Spec
import Idealize.ShloMosaic.Lib.Pipeline.Value
import Idealize.ShloMosaic.Lib.ValueIdx
import Idealize.ShloMosaic.Lib.KernelVsHost

noncomputable section

namespace Cert.ReferenceIdeal.RefValue

open Cert.ReferenceIdeal Cert.ReferenceIdeal.Gen Cert.ReferenceIdeal.Read Idealize.ShloMosaic Idealize.ShloMosaic.ValueIdx Cert.Conv

/-- The padded array at padded row d + t (d ≤ 3) is x moved back 3 - d steps from row t. -/
theorem padded_apply (x0 : (⟨S4x4096x2048, .f32⟩ : BufTy).Contents (Elt Ideal)) (n : Fin 4) (t : Fin 4096) (c : Fin 2048)
    (d s : Nat) (hds : d + s = 3) (j : S4x4099x2048.Idx) (h0 : (j 0).val = n.val) (h1 : (j 1).val = d + t.val)
    (h2 : (j 2).val = c.val) : val_main_v0 (F := Ideal) x0 j = tap (B := 4) (T := 4096) (C := 2048) x0 s n t c := by
  have ht := t.isLt
  unfold val_main_v0
  by_cases h : s ≤ t.val
  · rw [tap_of_le x0 s n t ⟨t.val - s, by omega⟩ c (by show t.val - s + s = t.val; omega)]
    refine pad_apply_of_inside _ _ _ x0 _ pads_S4x4096x2048_S4x4099x2048_000_300_000 h_S_ j _ (fun a => ?_)
    match a with
    | ⟨0, _⟩ => show (j 0).val = 0 + n.val * (0 + 1); omega
    | ⟨1, _⟩ => show (j 1).val = 3 + (t.val - s) * (0 + 1); omega
    | ⟨2, _⟩ => show (j 2).val = 0 + c.val * (0 + 1); omega
  · rw [tap_of_lt x0 s n t c (by omega)]
    refine (pad_apply_of_not_inside _ _ _ x0 _ pads_S4x4096x2048_S4x4099x2048_000_300_000 h_S_ j (1 : Fin 3) (fun hh => ?_)).trans ?_
    · have h3 : 3 ≤ (j 1).val := hh.1
      omega
    · exact sitofp_zero (φ := .f32)

/-- Column k of the weights laid over batch and time. -/
theorem col_apply (x1 : (⟨S2048x4, .f32⟩ : BufTy).Contents (Elt Ideal)) (n : Fin 4) (t : Fin 4096) (c : Fin 2048) :
    val_main_v6 (F := Ideal) x1 (ix3 n t c) = x1 (ix2 c (0 : Fin 4))
    ∧ val_main_v14 (F := Ideal) x1 (ix3 n t c) = x1 (ix2 c (1 : Fin 4))
    ∧ val_main_v21 (F := Ideal) x1 (ix3 n t c) = x1 (ix2 c (2 : Fin 4))
    ∧ val_main_v28 (F := Ideal) x1 (ix3 n t c) = x1 (ix2 c (3 : Fin 4)) := by
  refine ⟨?_, ?_, ?_, ?_⟩
  · rw [val_main_v6_apply, val_main_v5_apply, val_main_v4_apply, val_main_v3_apply]
    exact congrArg x1 (funext fun a => Fin.ext (by
      match a with
      | ⟨0, _⟩ => exact Nat.div_one _
      | ⟨1, _⟩ => rfl))
  · rw [val_main_v14_apply, val_main_v13_apply, val_main_v12_apply, val_main_v11_apply]
    exact congrArg x1 (funext fun a => Fin.ext (by
      match a with
      | ⟨0, _⟩ => exact Nat.div_one _
      | ⟨1, _⟩ => rfl))
  · rw [val_main_v21_apply, val_main_v20_apply, val_main_v19_apply, val_main_v18_apply]
    exact congrArg x1 (funext fun a => Fin.ext (by
      match a with
      | ⟨0, _⟩ => exact Nat.div_one _
      | ⟨1, _⟩ => rfl))
  · rw [val_main_v28_apply, val_main_v27_apply, val_main_v26_apply, val_main_v25_apply]
    exact congrArg x1 (funext fun a => Fin.ext (by
      match a with
      | ⟨0, _⟩ => exact Nat.div_one _
      | ⟨1, _⟩ => rfl))

/-- The bias laid over batch and time. -/
theorem bias_apply (x2 : (⟨S2048, .f32⟩ : BufTy).Contents (Elt Ideal)) (n : Fin 4) (t : Fin 4096) (c : Fin 2048) :
    val_main_v8 (F := Ideal) x2 (ix3 n t c) = x2 (ix1 c) := by
  rw [val_main_v8_apply, val_main_v1_apply]
  exact congrArg x2 (funext fun a => Fin.ext (by
    match a with
    | ⟨0, _⟩ => rfl))

/-- The reference's result is the filter of its arguments. -/
theorem ref_eq (x0 : (⟨S4x4096x2048, .f32⟩ : BufTy).Contents (Elt Ideal)) (x1 : (⟨S2048x4, .f32⟩ : BufTy).Contents (Elt Ideal))
    (x2 : (⟨S2048, .f32⟩ : BufTy).Contents (Elt Ideal)) :
    val_main_v31 (F := Ideal) x0 x1 x2 = conv (B := 4) (T := 4096) (C := 2048) x0 x1 x2 := by
  funext i
  obtain ⟨n, t, c, rfl⟩ : ∃ (n : Fin 4) (t : Fin 4096) (c : Fin 2048), i = ix3 n t c := ⟨i 0, i 1, i 2, eq_ix3 i⟩
  obtain ⟨w0, w1, w2, w3⟩ := col_apply x1 n t c
  have hb := bias_apply x2 n t c
  have p3 : val_main_v2 (F := Ideal) x0 (ix3 n t c) = tap (B := 4) (T := 4096) (C := 2048) x0 3 n t c :=
    (val_main_v2_apply x0 _).trans (padded_apply x0 n t c 0 3 rfl _ rfl (by show t.val = 0 + t.val; omega) rfl)
  have p2 : val_main_v10 (F := Ideal) x0 (ix3 n t c) = tap (B := 4) (T := 4096) (C := 2048) x0 2 n t c :=
    (val_main_v10_apply x0 _).trans (padded_apply x0 n t c 1 2 rfl _ rfl rfl rfl)
  have p1 : val_main_v17 (F := Ideal) x0 (ix3 n t c) = tap (B := 4) (T := 4096) (C := 2048) x0 1 n t c :=
    (val_main_v17_apply x0 _).trans (padded_apply x0 n t c 2 1 rfl _ rfl rfl rfl)
  have p0 : val_main_v24 (F := Ideal) x0 (ix3 n t c) = x0 (ix3 n t c) :=
    ((val_main_v24_apply x0 _).trans (padded_apply x0 n t c 3 0 rfl _ rfl rfl rfl)).trans (tap_zero x0 n t c)
  rw [conv_ix3]
  unfold filt
  simp only [val_main_v31_apply, val_main_v30_apply, val_main_v29_apply, val_main_v23_apply, val_main_v22_apply,
    val_main_v16_apply, val_main_v15_apply, val_main_v9_apply, val_main_v7_apply, Ideal.addf_def, Ideal.mulf_def]
  rw [p3, p2, p1, p0, w0, w1, w2, w3, hb, mul_comm (tap x0 3 n t c) (x1 (ix2 c (0 : Fin 4))),
    mul_comm (tap x0 2 n t c) (x1 (ix2 c (1 : Fin 4))), mul_comm (tap x0 1 n t c) (x1 (ix2 c (2 : Fin 4))),
    mul_comm (x0 (ix3 n t c)) (x1 (ix2 c (3 : Fin 4)))]

end Cert.ReferenceIdeal.RefValue

end
-- ==== Proof.lean ====
/-
  A causal depthwise filter with four taps and a residual: the kernel against its reference.

  Both programs compute, for x of extents [4, 4096, 2048], weights w of extents [2048, 4] and a bias b
  of extent [2048],

      out[n,t,c] = x[n,t,c] + ((((b[c] + w[c,0]·x[n,t-3,c]) + w[c,1]·x[n,t-2,c]) + w[c,2]·x[n,t-1,c]) + w[c,3]·x[n,t,c])

  with x read as 0 before the start of the time axis (`Cert.Conv.conv`, Proof/Spec.lean). The kernel
  cuts the channels into 8 blocks of 256 and runs one grid point per (batch entry, channel block);
  inside a point it walks the 4096 rows in eight chunks of 512, the first with zero rows put in
  front of its taps, each later one over a window that starts 8 rows early (Proof/Payload.lean,
  Proof/Pieces.lean, Proof/Whole.lean). The reference pads x with three zero rows and adds four
  shifted windows times the weights' columns (Proof/RefValue.lean). On the extended reals the two
  agree entry by entry: the sums are grouped alike, and only the two factors of each product are
  exchanged, which multiplication on the extended reals allows at every value. No finiteness of
  the inputs is used. The idealization rewrote nothing, so the two printed kernels differ only in
  the instance they are read at.
-/
import proofs.«156720_j6777458393273_2_alg».proof.Defs
import proofs.«156720_j6777458393273_2_alg».proof.Proof.Gen.Kernel
import proofs.«156720_j6777458393273_2_alg».proof.Proof.Gen.Kernel.Frame
import proofs.«156720_j6777458393273_2_alg».proof.Proof.Gen.KernelIdeal
import proofs.«156720_j6777458393273_2_alg».proof.Proof.Gen.KernelIdeal.Frame
import proofs.«156720_j6777458393273_2_alg».proof.Proof.Gen.KernelIdeal.Value
import proofs.«156720_j6777458393273_2_alg».proof.Proof.Gen.ReferenceIdeal
import proofs.«156720_j6777458393273_2_alg».proof.Proof.Gen.ReferenceIdeal.Run
import proofs.«156720_j6777458393273_2_alg».proof.Proof.Gen.ReferenceIdeal.Read
import proofs.«156720_j6777458393273_2_alg».proof.Proof.Gen.Pre_finite_inputs
import proofs.«156720_j6777458393273_2_alg».proof.Proof.Whole
import proofs.«156720_j6777458393273_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments alone: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the two kernels. -/
theorem preserves : Cert.preserves_Kernel_KernelIdeal := trivial

/-- From memories that agree on x, w and b, the kernel's result array and the reference's both end
    holding the filter of x, w and b. -/
theorem algebraic : Cert.algebraic_KernelIdeal_ReferenceIdeal := by
  intro m ρ m' ρ' _ hagree
  refine ⟨fun c => Cert.Conv.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
